-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S131072x128 : Shape := ⟨2, ![131072, 128]⟩
abbrev S131072x1 : Shape := ⟨2, ![131072, 1]⟩
abbrev S128x131072 : Shape := ⟨2, ![128, 131072]⟩
abbrev S128x1 : Shape := ⟨2, ![128, 1]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S131072x1 : S_.BroadcastsInDim S131072x1 (![] : Fin 0 → Fin S131072x1.rank)
  reducesTo_S131072x1_S_d0_1 : S131072x1.ReducesTo [0, 1] S_
  bcast_S_S128x131072 : S_.BroadcastsInDim S128x131072 (![] : Fin 0 → Fin S128x131072.rank)
  reducesTo_S128x131072_S_d0_1 : S128x131072.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg6 : FVec F S128x1 .f32) (main_v13 : IVec S_ 1) (main_v16 : IVec S128x131072 1) : IVec S_ 1 :=
  let main_c_5 : IVec S_ 1 := constantI S_ 1 1#1
  let main_v17 : IVec S_ 1 := (fun x v => Host.reduce IntOp.andi x v reducesTo_S128x131072_S_d0_1 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S128x1024 .f32) (main_arg1 : FVec F S131072x128 .f32) (main_arg2 : IVec S131072x128 1) (main_arg3 : FVec F S131072x1 .f32) (main_arg4 : FVec F S128x131072 .f32) (main_arg5 : IVec S128x131072 1) (main_arg6 : FVec F S128x1 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x1 .f32 := Host.absf main_arg3
  let main_cst_2 : FVec F S_ .f32 := constant S_ .f32 0x7F800000#32
  let main_v10 : FVec F S131072x1 .f32 := broadcastInDim S131072x1 ![] bcast_S_S131072x1 main_cst_2
  let main_v11 : IVec S131072x1 1 := cmpf .olt main_v9 main_v10
  let main_c_3 : IVec S_ 1 := constantI S_ 1 1#1
  let main_v12 : IVec S_ 1 := (fun x v => Host.reduce IntOp.andi x v reducesTo_S131072x1_S_d0_1 h_S_) main_v11 main_c_3
  let main_v13 : IVec S_ 1 := andi main_v8 main_v12
  let main_v14 : FVec F S128x131072 .f32 := Host.absf main_arg4
  let main_cst_4 : FVec F S_ .f32 := constant S_ .f32 0x7F800000#32
  let main_v15 : FVec F S128x131072 .f32 := broadcastInDim S128x131072 ![] bcast_S_S128x131072 main_cst_4
  let main_v16 : IVec S128x131072 1 := cmpf .olt main_v14 main_v15
  fn_part1 (F := F) main_arg6 main_v13 main_v16
-- ==== Kernel.lean ====
abbrev S128x1024 : Shape := ⟨2, ![128, 1024]⟩
abbrev S131072x128 : Shape := ⟨2, ![131072, 128]⟩
abbrev S131072x1 : Shape := ⟨2, ![131072, 1]⟩
abbrev S128x131072 : Shape := ⟨2, ![128, 131072]⟩
abbrev S128x1 : Shape := ⟨2, ![128, 1]⟩
abbrev S2048x128 : Shape := ⟨2, ![2048, 128]⟩
abbrev S128x512 : Shape := ⟨2, ![128, 512]⟩
abbrev S2048x1 : Shape := ⟨2, ![2048, 1]⟩
abbrev S128x2048 : Shape := ⟨2, ![128, 2048]⟩
abbrev S2048x512 : Shape := ⟨2, ![2048, 512]⟩

abbrev nBuf : Space → Nat
  | .hbm => 15
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S131072x128, .f32⟩
  | .hbm, ⟨2, _⟩ => ⟨S131072x128, .i1⟩
  | .hbm, ⟨3, _⟩ => ⟨S131072x1, .f32⟩
  | .hbm, ⟨4, _⟩ => ⟨S128x131072, .f32⟩
  | .hbm, ⟨5, _⟩ => ⟨S128x131072, .i1⟩
  | .hbm, ⟨6, _⟩ => ⟨S128x1, .f32⟩
  | .hbm, ⟨7, _⟩ => ⟨S131072x128, .f32⟩
  | .hbm, ⟨8, _⟩ => ⟨S131072x128, .f32⟩
  | .hbm, ⟨9, _⟩ => ⟨S131072x128, .bf16⟩
  | .hbm, ⟨10, _⟩ => ⟨S128x131072, .f32⟩
  | .hbm, ⟨11, _⟩ => ⟨S128x131072, .f32⟩
  | .hbm, ⟨12, _⟩ => ⟨S128x131072, .bf16⟩
  | .hbm, ⟨13, _⟩ => ⟨S128x1024, .bf16⟩
  | .hbm, ⟨14, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S128x512, .bf16⟩
  | .local _ .vmem, ⟨3, _⟩ => ⟨S128x512, .bf16⟩
  | .local _ .vmem, ⟨4, _⟩ => ⟨S2048x1, .f32⟩
  | .local _ .vmem, ⟨5, _⟩ => ⟨S2048x1, .f32⟩
  | .local _ .vmem, ⟨6, _⟩ => ⟨S128x2048, .bf16⟩
  | .local _ .vmem, ⟨7, _⟩ => ⟨S128x2048, .bf16⟩
  | .local _ .vmem, ⟨8, _⟩ => ⟨S128x1, .f32⟩
  | .local _ .vmem, ⟨9, _⟩ => ⟨S128x512, .f32⟩
  | .local _ .vmem, ⟨10, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S128x512_S128x512 : S128x512.ShapeCasts S128x512
  inb_S2048x1_S2048x1_0_0 : ∀ a, (![0, 0] : Fin 2 → Nat) a + S2048x1.size a ≤ S2048x1.size a
  h_S2048x1 : 0 < S2048x1.numel
  broadcasts_S2048x1_S2048x512 : S2048x1.Broadcasts S2048x512
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x1_S128x1_0_0 : ∀ a, (![0, 0] : Fin 2 → Nat) a + S128x1.size a ≤ S128x1.size a
  h_S128x1 : 0 < S128x1.numel
  broadcasts_S128x1_S128x512 : S128x1.Broadcasts S128x512
  dot_S2048x128_S128x512_S2048x512_1_0_0_1_n_n_wf : DotDims.WF S2048x128 S128x512 S2048x512 [1] [0] [0] [1] [] []
  dot_S128x2048_S2048x512_S128x512_1_0_0_1_n_n_wf : DotDims.WF S128x2048 S2048x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .bf16 = 32 ∨ (Rect.block (s := S131072x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x1024.size a
  hwx0_1 : ∀ i : grid0.Coords, EltTy.bits .bf16 = 32 ∨ (Rect.block (s := S128x1024) S128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .f32 = 32 ∨ (Rect.block (s := S131072x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x131072.size a
  hwx0_3 : ∀ i : grid0.Coords, EltTy.bits .bf16 = 32 ∨ (Rect.block (s := S128x131072) S128x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x1024.size a
  hwx0_5 : ∀ i : grid0.Coords, EltTy.bits .f32 = 32 ∨ (Rect.block (s := S128x1024) S128x512.size (cc0_transform_5 i) (hinb0_5 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x1024 : Shape := ⟨2, ![128, 1024]⟩
abbrev S131072x128 : Shape := ⟨2, ![131072, 128]⟩
abbrev S131072x1 : Shape := ⟨2, ![131072, 1]⟩
abbrev S128x131072 : Shape := ⟨2, ![128, 131072]⟩
abbrev S128x1 : Shape := ⟨2, ![128, 1]⟩
abbrev S131072x1024 : Shape := ⟨2, ![131072, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S131072x128, .f32⟩
  | .hbm, ⟨2, _⟩ => ⟨S131072x128, .i1⟩
  | .hbm, ⟨3, _⟩ => ⟨S131072x1, .f32⟩
  | .hbm, ⟨4, _⟩ => ⟨S128x131072, .f32⟩
  | .hbm, ⟨5, _⟩ => ⟨S128x131072, .i1⟩
  | .hbm, ⟨6, _⟩ => ⟨S128x1, .f32⟩
  | .hbm, ⟨7, _⟩ => ⟨S131072x128, .f32⟩
  | .hbm, ⟨8, _⟩ => ⟨S131072x128, .f32⟩
  | .hbm, ⟨9, _⟩ => ⟨S131072x1024, .f32⟩
  | .hbm, ⟨10, _⟩ => ⟨S131072x1024, .f32⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S_, .f32⟩
  | .hbm, ⟨15, _⟩ => ⟨S131072x1024, .f32⟩
  | .hbm, ⟨16, _⟩ => ⟨S131072x1024, .f32⟩
  | .hbm, ⟨17, _⟩ => ⟨S_, .f32⟩
  | .hbm, ⟨18, _⟩ => ⟨S131072x1024, .f32⟩
  | .hbm, ⟨19, _⟩ => ⟨S131072x1024, .f32⟩
  | .hbm, ⟨20, _⟩ => ⟨S131072x1024, .f32⟩
  | .hbm, ⟨21, _⟩ => ⟨S128x131072, .f32⟩
  | .hbm, ⟨22, _⟩ => ⟨S128x131072, .f32⟩
  | .hbm, ⟨23, _⟩ => ⟨S128x1024, .f32⟩
  | .hbm, ⟨24, _⟩ => ⟨S128x1024, .f32⟩
  | .hbm, ⟨25, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]

class Facts₀ : Prop where
  bcast_S131072x1_S131072x1024_0_1 : S131072x1.BroadcastsInDim S131072x1024 (![0, 1] : Fin 2 → Fin S131072x1024.rank)
  bcast_S_S131072x1024 : S_.BroadcastsInDim S131072x1024 (![] : Fin 0 → Fin S131072x1024.rank)
  bcast_S128x1_S128x1024_0_1 : S128x1.BroadcastsInDim S128x1024 (![0, 1] : Fin 2 → Fin S128x1024.rank)
  dot_S131072x128_S128x1024_S131072x1024_1_0_0_1_n_n_wf : DotDims.WF S131072x128 S128x1024 S131072x1024 [1] [0] [0] [1] [] []
  dot_S128x131072_S131072x1024_S128x1024_1_0_0_1_n_n_wf : DotDims.WF S128x131072 S131072x1024 S128x1024 [1] [0] [0] [1] [] []

variable [Facts₀]

def dot_S131072x128_S128x1024_S131072x1024_1_0_0_1_n_n : DotDims S131072x128 S128x1024 S131072x1024 where
  lhsContracting := [1]
  rhsContracting := [0]
  lhsNonContracting := [0]
  rhsNonContracting := [1]
  lhsBatch := []
  rhsBatch := []
  wf := dot_S131072x128_S128x1024_S131072x1024_1_0_0_1_n_n_wf
def dot_S128x131072_S131072x1024_S128x1024_1_0_0_1_n_n : DotDims S128x131072 S131072x1024 S128x1024 where
  lhsContracting := [1]
  rhsContracting := [0]
  lhsNonContracting := [0]
  rhsNonContracting := [1]
  lhsBatch := []
  rhsBatch := []
  wf := dot_S128x131072_S131072x1024_S128x1024_1_0_0_1_n_n_wf

class Facts : Prop extends Facts₀ where

variable [Facts]
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.KanSpec.lean ====
/-
  The two-layer network both programs compute, as one function of its (already masked) weight matrices.

  With `A` the first layer's masked weights [131072, 128], `X` the input [128, 1024], `B1` the first bias
  [131072, 1], `C` the second layer's masked weights [128, 131072] and `B2` the second bias [128, 1], hidden unit
  `K` at batch column `q` has pre-activation `pre K q = Σ_l A[K, l] · X[l, q] + B1[K]`, its activation is
  `act v = v · (1 / (1 + e^(-v)))` (SiLU), and the result at `(p, q)` is `Σ_K C[p, K] · act (pre K q) + B2[p]`, the
  sum running over all 131072 hidden units.

  The second half of the file says the same with the hidden units taken in 64 consecutive blocks of 2048: a block's
  contribution is written through accessors that are total on the naturals (zero outside the matrix), so that it is
  a function of a plain block number, and the 64 contributions add up to the whole sum. Only associativity and
  commutativity of the extended reals' addition are used: nothing here needs an entry to be finite.
-/
import Idealize.ShloMosaic.Lib.ValueIdx
import Idealize.ShloMosaic.PureOps.Ideal.Laws
import proofs.«126834_j44641890075015_1_alg».proof.Proof.LibBlockSum

noncomputable section

namespace Kan

open Idealize.ShloMosaic Idealize.ShloMosaic.ValueIdx Finset

/-- A matrix of extended reals with `r` rows and `c` columns. -/
abbrev Mat (r c : ℕ) : Type := (⟨2, ![r, c]⟩ : Shape).Idx → EReal

/-- The float `1.0`, kept as its word: both programs spell it with the same one. -/
def one : EReal := Ideal.ofBits .f32 0x3F800000#32

/-- SiLU: `v · (1 / (1 + e^(-v)))`. -/
def act (v : EReal) : EReal := v * Ideal.div one (one + Ideal.exp (-v))

/-- Hidden unit `K`'s pre-activation at batch column `q`: row `K` of `A` against column `q` of `X`, plus its bias. -/
def pre (A : Mat 131072 128) (X : Mat 128 1024) (B1 : Mat 131072 1) (K : Fin 131072) (q : Fin 1024) : EReal :=
  (∑ l : Fin 128, A (ix2 K l) * X (ix2 l q)) + B1 (ix2 K (0 : Fin 1))

/-- The result at row `p`, batch column `q`: row `p` of `C` against the activations of all hidden units, plus its bias. -/
def outAt (A : Mat 131072 128) (X : Mat 128 1024) (B1 : Mat 131072 1) (C : Mat 128 131072) (B2 : Mat 128 1)
    (p : Fin 128) (q : Fin 1024) : EReal :=
  (∑ K : Fin 131072, C (ix2 p K) * act (pre A X B1 K q)) + B2 (ix2 p (0 : Fin 1))

/-- The whole result matrix. -/
def out (A : Mat 131072 128) (X : Mat 128 1024) (B1 : Mat 131072 1) (C : Mat 128 131072) (B2 : Mat 128 1) :
    Mat 128 1024 :=
  fun i => outAt A X B1 C B2 ⟨(i 0).val, (i 0).isLt⟩ ⟨(i 1).val, (i 1).isLt⟩

/-! ## The same, block by block -/

/-- A matrix entry by natural-number coordinates: zero outside the matrix. -/
def at2 {R C : ℕ} (a : Mat R C) (r c : ℕ) : EReal :=
  if h : r < R ∧ c < C then a (ix2 ⟨r, h.1⟩ ⟨c, h.2⟩) else 0

theorem at2_of_lt {R C : ℕ} (a : Mat R C) {r c : ℕ} (hr : r < R) (hc : c < C) :
    at2 a r c = a (ix2 ⟨r, hr⟩ ⟨c, hc⟩) := dif_pos ⟨hr, hc⟩

theorem at2_fin {R C : ℕ} (a : Mat R C) (r : Fin R) (c : Fin C) : at2 a r.val c.val = a (ix2 r c) :=
  dif_pos ⟨r.isLt, c.isLt⟩

/-- The pre-activation by natural-number coordinates. -/
def preT (A : Mat 131072 128) (X : Mat 128 1024) (B1 : Mat 131072 1) (K q : ℕ) : EReal :=
  (∑ l : Fin 128, at2 A K l.val * at2 X l.val q) + at2 B1 K 0

theorem preT_fin (A : Mat 131072 128) (X : Mat 128 1024) (B1 : Mat 131072 1) (K : Fin 131072) (q : Fin 1024) :
    preT A X B1 K.val q.val = pre A X B1 K q := by
  unfold preT pre
  rw [show at2 B1 K.val 0 = B1 (ix2 K (0 : Fin 1)) from at2_fin B1 K 0]
  exact congrArg (· + B1 (ix2 K (0 : Fin 1))) (sum_congr rfl fun l _ => by rw [at2_fin A K l, at2_fin X l q])

/-- Grid point `n` handles hidden block `n % 64` (units `2048 · (n % 64) + k`, `k < 2048`) and batch block `n / 64`
    (columns `512 · (n / 64) + q`, `q < 512`): what it adds to the result at row `p`, local column `q`. -/
def addend (A : Mat 131072 128) (X : Mat 128 1024) (B1 : Mat 131072 1) (C : Mat 128 131072) (n p q : ℕ) : EReal :=
  ∑ k : Fin 2048, at2 C p (2048 * (n % 64) + k.val) * act (preT A X B1 (2048 * (n % 64) + k.val) (512 * (n / 64) + q))

/-- The 64 points of batch block `r` add up, with the bias, to the result at that block's column `q`. -/
theorem blocks_eq_outAt (A : Mat 131072 128) (X : Mat 128 1024) (B1 : Mat 131072 1) (C : Mat 128 131072) (B2 : Mat 128 1)
    (p : Fin 128) (r : ℕ) (hr : r < 2) (q : Fin 512) :
    (0 + ∑ s ∈ range 64, addend A X B1 C (64 * r + s) p.val q.val) + at2 B2 p.val 0
      = outAt A X B1 C B2 p ⟨512 * r + q.val, by have := q.isLt; omega⟩ := by
  have hq := q.isLt
  unfold outAt
  rw [zero_add, show at2 B2 p.val 0 = B2 (ix2 p (0 : Fin 1)) from at2_fin B2 p 0]
  refine congrArg (· + B2 (ix2 p (0 : Fin 1))) ?_
  have hs : ∀ s ∈ range 64, addend A X B1 C (64 * r + s) p.val q.val
      = ∑ k : Fin 2048, (fun K => at2 C p.val K * act (preT A X B1 K (512 * r + q.val))) (2048 * s + k.val) := by
    intro s hs
    have hs' : s < 64 := mem_range.mp hs
    unfold addend
    rw [show (64 * r + s) % 64 = s by omega, show (64 * r + s) / 64 = r by omega]
  rw [sum_congr rfl hs,
    BlockSum.sum_fin_blocks (fun K => at2 C p.val K * act (preT A X B1 K (512 * r + q.val))) 2048 64 131072 (by norm_num)]
  refine sum_congr rfl fun K _ => ?_
  show at2 C p.val K.val * act (preT A X B1 K.val (512 * r + q.val)) = _
  rw [at2_fin C p K, preT_fin A X B1 K ⟨512 * r + q.val, by omega⟩]

end Kan
-- ==== Proof.RefAtIndex.lean ====
/-
  The reference, read at one entry, is the network's result function.

  The reference multiplies each weight matrix by its mask, forms the hidden pre-activations with one whole matrix
  product plus the bias, applies SiLU as `v · (1 / (1 + exp (-v)))`, and takes the second whole matrix product plus the
  second bias. Read at `(p, q)` that is `Σ_K C[p, K] · act (Σ_l A[K, l] · X[l, q] + B1[K]) + B2[p]` with `A` and `C` the
  masked weights: the function `Kan.out`.
-/
import proofs.«126834_j44641890075015_1_alg».proof.Proof.Gen.ReferenceIdeal.Read
import proofs.«126834_j44641890075015_1_alg».proof.Proof.KanSpec

noncomputable section

namespace Cert.ReferenceIdeal.RefValue

open Cert.ReferenceIdeal Cert.ReferenceIdeal.Read Idealize.ShloMosaic Idealize.ShloMosaic.ValueIdx

/-- The activation stage is SiLU of the pre-activation stage, entry by entry. -/
theorem hidden_apply (x0 : (⟨S128x1024, .f32⟩ : BufTy).Contents (Elt Ideal)) (x1 : (⟨S131072x128, .f32⟩ : BufTy).Contents (Elt Ideal))
    (x2 : (⟨S131072x128, .i1⟩ : BufTy).Contents (Elt Ideal)) (x3 : (⟨S131072x1, .f32⟩ : BufTy).Contents (Elt Ideal)) (j : S131072x1024.Idx) :
    val_main_v5 (F := Ideal) x0 x1 x2 x3 j = Kan.act (val_main_v4 (F := Ideal) x0 x1 x2 x3 j) := by
  rw [val_main_v5_apply, val_main_call0_v5_apply, val_main_call0_v4_apply, val_main_call0_cst_0_apply,
    val_main_call0_v3_apply, val_main_call0_v2_apply, val_main_call0_cst_apply, val_main_call0_v1_apply,
    val_main_call0_v0_apply]
  rfl

/-- The pre-activation stage at hidden unit `K`, batch column `q`. -/
theorem pre_apply (x0 : (⟨S128x1024, .f32⟩ : BufTy).Contents (Elt Ideal)) (x1 : (⟨S131072x128, .f32⟩ : BufTy).Contents (Elt Ideal))
    (x2 : (⟨S131072x128, .i1⟩ : BufTy).Contents (Elt Ideal)) (x3 : (⟨S131072x1, .f32⟩ : BufTy).Contents (Elt Ideal))
    (K : Fin 131072) (q : Fin 1024) :
    val_main_v4 (F := Ideal) x0 x1 x2 x3 (ix2 K q) = Kan.pre (val_main_v1 (F := Ideal) x1 x2) x0 x3 K q := by
  rw [val_main_v4_apply, val_main_v2_apply, val_main_v3_apply]
  have e3 : idx_main_v3 (ix2 K q) = ix2 K (0 : Fin 1) := funext fun a => by
    match a with | ⟨0, _⟩ => rfl | ⟨1, _⟩ => rfl
  have el : ∀ l : Fin 128, lidx_main_v2 (ix2 K q) l = ix2 K l := fun l => funext fun a => by
    match a with | ⟨0, _⟩ => rfl | ⟨1, _⟩ => rfl
  have er : ∀ l : Fin 128, ridx_main_v2 (ix2 K q) l = ix2 l q := fun l => funext fun a => by
    match a with | ⟨0, _⟩ => rfl | ⟨1, _⟩ => rfl
  unfold Kan.pre
  rw [e3]
  exact congrArg (· + x3 (ix2 K (0 : Fin 1))) (Finset.sum_congr rfl fun l _ => by rw [el, er])

/-- The reference's result stage is `Kan.out` of the masked weights, the input and the two biases. -/
theorem result_eq (x0 : (⟨S128x1024, .f32⟩ : BufTy).Contents (Elt Ideal)) (x1 : (⟨S131072x128, .f32⟩ : BufTy).Contents (Elt Ideal))
    (x2 : (⟨S131072x128, .i1⟩ : BufTy).Contents (Elt Ideal)) (x3 : (⟨S131072x1, .f32⟩ : BufTy).Contents (Elt Ideal))
    (x4 : (⟨S128x131072, .f32⟩ : BufTy).Contents (Elt Ideal)) (x5 : (⟨S128x131072, .i1⟩ : BufTy).Contents (Elt Ideal))
    (x6 : (⟨S128x1, .f32⟩ : BufTy).Contents (Elt Ideal)) :
    val_main_v10 (F := Ideal) x0 x1 x2 x3 x4 x5 x6
      = Kan.out (val_main_v1 (F := Ideal) x1 x2) x0 x3 (val_main_v7 (F := Ideal) x4 x5) x6 := by
  funext i
  rw [val_main_v10_apply, val_main_v8_apply, val_main_v9_apply]
  have e9 : idx_main_v9 i = ix2 (⟨(i 0).val, (i 0).isLt⟩ : Fin 128) (0 : Fin 1) := funext fun a => by
    match a with | ⟨0, _⟩ => rfl | ⟨1, _⟩ => rfl
  have el : ∀ K : Fin 131072, lidx_main_v8 i K = ix2 (⟨(i 0).val, (i 0).isLt⟩ : Fin 128) K := fun K => funext fun a => by
    match a with | ⟨0, _⟩ => rfl | ⟨1, _⟩ => rfl
  have er : ∀ K : Fin 131072, ridx_main_v8 i K = ix2 K (⟨(i 1).val, (i 1).isLt⟩ : Fin 1024) := fun K => funext fun a => by
    match a with | ⟨0, _⟩ => rfl | ⟨1, _⟩ => rfl
  unfold Kan.out Kan.outAt
  rw [e9]
  refine congrArg (· + x6 (ix2 (⟨(i 0).val, (i 0).isLt⟩ : Fin 128) (0 : Fin 1))) (Finset.sum_congr rfl fun K _ => ?_)
  rw [el, er, hidden_apply, pre_apply]

end Cert.ReferenceIdeal.RefValue

end
-- ==== Proof.Blocks.lean ====
/-
  Which entries of the whole matrices a grid point's blocks hold.

  The grid has 2 × 64 points; point `t` works on batch block `t / 64` (512 columns) and hidden block `t % 64` (2048
  hidden units). Its five input blocks are rectangles of the matrices the region finds in memory:

    first-layer weights  [131072, 128]  rows    2048 · (t % 64) + k,  all columns
    input                [128, 1024]    all rows,  columns 512 · (t / 64) + q
    first bias           [131072, 1]    rows    2048 · (t % 64) + k
    second-layer weights [128, 131072]  all rows,  columns 2048 · (t % 64) + k
    second bias          [128, 1]       the whole column

  Each block entry is stated as the matrix entry at natural-number coordinates, so that it is a function of the
  plain point number.
-/
import proofs.«126834_j44641890075015_1_alg».proof.Proof.Gen.KernelIdeal.Value
import proofs.«126834_j44641890075015_1_alg».proof.Proof.KanSpec

noncomputable section

namespace Cert.KernelIdeal.Blk

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The five matrices as the region finds them -/

/-- The masked first-layer weights. -/
def w1 (c : Dev nD) : Kan.Mat 131072 128 := V m c main_v2
/-- The input. -/
def inp (c : Dev nD) : Kan.Mat 128 1024 := V m c main_v6
/-- The first bias column. -/
def b1 (c : Dev nD) : Kan.Mat 131072 1 := V m c main_arg3
/-- The masked second-layer weights. -/
def w2 (c : Dev nD) : Kan.Mat 128 131072 := V m c main_v5
/-- The second bias column. -/
def b2 (c : Dev nD) : Kan.Mat 128 1 := V m c main_arg6

/-! ## The block each point fetches, decided over the grid -/

theorem idx0 : ∀ t : Fin cfg0.N, win0_0.index t (0 : Fin 2) = t.val % 64 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 64 :=
  (by decide +kernel : ∀ t : Fin grid0.N, _)
theorem idx2 : ∀ t : Fin cfg0.N, win0_2.index t (0 : Fin 2) = t.val % 64 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 64 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-! ## The blocks' entries -/

/-- First-layer weights: local row `k` is row `2048 · (t % 64) + k`. -/
theorem blk0_apply (c : Dev nD) (t : Fin cfg0.N) (k : Fin 2048) (l : Fin 128) :
    (iblk m c 0 t : Vec Ideal S2048x128 .bf16) (ix2 k l) = Kan.at2 (w1 m c) (2048 * (t.val % 64) + k.val) l.val := by
  have ht : t.val < 128 := lt_of_lt_of_eq t.isLt N_0
  obtain ⟨e0, e1⟩ := idx0 t
  rw [Kan.at2_of_lt (w1 m c) (show 2048 * (t.val % 64) + k.val < 131072 by have := k.isLt; omega) l.isLt]
  unfold iblk w1
  rw [View.read_apply]
  show V m c main_v2 _ = V m c main_v2 _
  refine congrArg (V m c main_v2) (funext fun a => Fin.ext ?_)
  match a with
  | ⟨0, _⟩ => show win0_0.index t (0 : Fin 2) * 2048 + 1 * k.val = 2048 * (t.val % 64) + k.val; rw [e0]; omega
  | ⟨1, _⟩ => show win0_0.index t (1 : Fin 2) * 128 + 1 * l.val = l.val; rw [e1]; omega

/-- Input: local column `q` is column `512 · (t / 64) + q`. -/
theorem blk1_apply (c : Dev nD) (t : Fin cfg0.N) (l : Fin 128) (q : Fin 512) :
    (iblk m c 1 t : Vec Ideal S128x512 .bf16) (ix2 l q) = Kan.at2 (inp m c) l.val (512 * (t.val / 64) + q.val) := by
  have ht : t.val < 128 := lt_of_lt_of_eq t.isLt N_0
  obtain ⟨e0, e1⟩ := idx1 t
  rw [Kan.at2_of_lt (inp m c) l.isLt (show 512 * (t.val / 64) + q.val < 1024 by have := q.isLt; omega)]
  unfold iblk inp
  rw [View.read_apply]
  show V m c main_v6 _ = V m c main_v6 _
  refine congrArg (V m c main_v6) (funext fun a => Fin.ext ?_)
  match a with
  | ⟨0, _⟩ => show win0_1.index t (0 : Fin 2) * 128 + 1 * l.val = l.val; rw [e0]; omega
  | ⟨1, _⟩ => show win0_1.index t (1 : Fin 2) * 512 + 1 * q.val = 512 * (t.val / 64) + q.val; rw [e1]; omega

/-- First bias: local row `k` is row `2048 · (t % 64) + k`. -/
theorem blk2_apply (c : Dev nD) (t : Fin cfg0.N) (k : Fin 2048) :
    (iblk m c 2 t : Vec Ideal S2048x1 .f32) (ix2 k (0 : Fin 1)) = Kan.at2 (b1 m c) (2048 * (t.val % 64) + k.val) 0 := by
  have ht : t.val < 128 := lt_of_lt_of_eq t.isLt N_0
  obtain ⟨e0, e1⟩ := idx2 t
  rw [Kan.at2_of_lt (b1 m c) (show 2048 * (t.val % 64) + k.val < 131072 by have := k.isLt; omega) (show 0 < 1 by decide)]
  unfold iblk b1
  rw [View.read_apply]
  show V m c main_arg3 _ = V m c main_arg3 _
  refine congrArg (V m c main_arg3) (funext fun a => Fin.ext ?_)
  match a with
  | ⟨0, _⟩ => show win0_2.index t (0 : Fin 2) * 2048 + 1 * k.val = 2048 * (t.val % 64) + k.val; rw [e0]; omega
  | ⟨1, _⟩ => show win0_2.index t (1 : Fin 2) * 1 + 1 * 0 = 0; rw [e1]

/-- Second-layer weights: local column `k` is column `2048 · (t % 64) + k`. -/
theorem blk3_apply (c : Dev nD) (t : Fin cfg0.N) (p : Fin 128) (k : Fin 2048) :
    (iblk m c 3 t : Vec Ideal S128x2048 .bf16) (ix2 p k) = Kan.at2 (w2 m c) p.val (2048 * (t.val % 64) + k.val) := by
  have ht : t.val < 128 := lt_of_lt_of_eq t.isLt N_0
  obtain ⟨e0, e1⟩ := idx3 t
  rw [Kan.at2_of_lt (w2 m c) p.isLt (show 2048 * (t.val % 64) + k.val < 131072 by have := k.isLt; omega)]
  unfold iblk w2
  rw [View.read_apply]
  show V m c main_v5 _ = V m c main_v5 _
  refine congrArg (V m c main_v5) (funext fun a => Fin.ext ?_)
  match a with
  | ⟨0, _⟩ => show win0_3.index t (0 : Fin 2) * 128 + 1 * p.val = p.val; rw [e0]; omega
  | ⟨1, _⟩ => show win0_3.index t (1 : Fin 2) * 2048 + 1 * k.val = 2048 * (t.val % 64) + k.val; rw [e1]; omega

/-- Second bias: the whole column at every point. -/
theorem blk4_apply (c : Dev nD) (t : Fin cfg0.N) (p : Fin 128) :
    (iblk m c 4 t : Vec Ideal S128x1 .f32) (ix2 p (0 : Fin 1)) = Kan.at2 (b2 m c) p.val 0 := by
  obtain ⟨e0, e1⟩ := idx4 t
  rw [Kan.at2_of_lt (b2 m c) p.isLt (show 0 < 1 by decide)]
  unfold iblk b2
  rw [View.read_apply]
  show V m c main_arg6 _ = V m c main_arg6 _
  refine congrArg (V m c main_arg6) (funext fun a => Fin.ext ?_)
  match a with
  | ⟨0, _⟩ => show win0_4.index t (0 : Fin 2) * 128 + 1 * p.val = p.val; rw [e0]; omega
  | ⟨1, _⟩ => show win0_4.index t (1 : Fin 2) * 1 + 1 * 0 = 0; rw [e1]

end Cert.KernelIdeal.Blk

end
-- ==== Proof.Payload.lean ====
/-
  The kernel body's arithmetic, read at one entry.

  At one grid point the body holds a block of 2048 hidden units: the first layer's rows `x0` [2048, 128] and bias
  column `x2` [2048, 1], the second layer's columns `x3` [128, 2048], and a block `x1` [128, 512] of batch columns.
  It forms the block's pre-activations `x0 · x1 + x2` [2048, 512], applies SiLU entry by entry, multiplies by `x3`
  and adds the product to what the output block [128, 512] held before. Read at row `p`, local column `q`:

    new (p, q) = old (p, q) + Σ_k x3[p, k] · act (Σ_l x0[k, l] · x1[l, q] + x2[k]).

  The block of zeros the first point of a run starts from, and the bias column the last point adds, are read the
  same way. At the extended reals a change of float format is the identity, a matrix product into a zero
  accumulator is the plain sum of products, and `0 - v` is `-v`.
-/
import proofs.«126834_j44641890075015_1_alg».proof.Proof.Gen.KernelIdeal.Skeleton
import proofs.«126834_j44641890075015_1_alg».proof.Proof.KanSpec
import Idealize.ShloMosaic.Lib.Pipeline.Value

noncomputable section

namespace Cert.KernelIdeal.Pay

open Cert.KernelIdeal Cert.KernelIdeal.Gen Idealize.ShloMosaic Idealize.ShloMosaic.ValueIdx

/-- The first product's dimensions: [2048, 128] × [128, 512], contracting the 128. -/
abbrev D1 : DotDims S2048x128 S128x512 S2048x512 := dot_S2048x128_S128x512_S2048x512_1_0_0_1_n_n
/-- The second product's dimensions: [128, 2048] × [2048, 512], contracting the 2048. -/
abbrev D2 : DotDims S128x2048 S2048x512 S128x512 := dot_S128x2048_S2048x512_S128x512_1_0_0_1_n_n

/-! ## The two products' operand indices -/

theorem lhs1_0 (i : S2048x512.Idx) (k : D1.contr.Idx) : (D1.lhsIdx i k 0).val = (i 0).val := by
  unfold DotDims.lhsIdx
  rw [dif_neg (show ¬(0 : Fin S2048x128.rank) ∈ D1.lhsBatch by decide), dif_pos (show (0 : Fin S2048x128.rank) ∈ D1.lhsNonContracting by decide)]
  rfl
theorem lhs1_1 (i : S2048x512.Idx) (k : D1.contr.Idx) : (D1.lhsIdx i k 1).val = (k ⟨0, by decide⟩).val :=
  D1.lhsIdx_val_of_single rfl i k
theorem rhs1_0 (i : S2048x512.Idx) (k : D1.contr.Idx) : (D1.rhsIdx i k 0).val = (k ⟨0, by decide⟩).val :=
  D1.rhsIdx_val_of_single rfl i k
theorem rhs1_1 (i : S2048x512.Idx) (k : D1.contr.Idx) : (D1.rhsIdx i k 1).val = (i 1).val := by
  unfold DotDims.rhsIdx
  rw [dif_neg (show ¬(1 : Fin S128x512.rank) ∈ D1.rhsBatch by decide), dif_pos (show (1 : Fin S128x512.rank) ∈ D1.rhsNonContracting by decide)]
  rfl

theorem lhs2_0 (i : S128x512.Idx) (k : D2.contr.Idx) : (D2.lhsIdx i k 0).val = (i 0).val := by
  unfold DotDims.lhsIdx
  rw [dif_neg (show ¬(0 : Fin S128x2048.rank) ∈ D2.lhsBatch by decide), dif_pos (show (0 : Fin S128x2048.rank) ∈ D2.lhsNonContracting by decide)]
  rfl
theorem lhs2_1 (i : S128x512.Idx) (k : D2.contr.Idx) : (D2.lhsIdx i k 1).val = (k ⟨0, by decide⟩).val :=
  D2.lhsIdx_val_of_single rfl i k
theorem rhs2_0 (i : S128x512.Idx) (k : D2.contr.Idx) : (D2.rhsIdx i k 0).val = (k ⟨0, by decide⟩).val :=
  D2.rhsIdx_val_of_single rfl i k
theorem rhs2_1 (i : S128x512.Idx) (k : D2.contr.Idx) : (D2.rhsIdx i k 1).val = (i 1).val := by
  unfold DotDims.rhsIdx
  rw [dif_neg (show ¬(1 : Fin S2048x512.rank) ∈ D2.rhsBatch by decide), dif_pos (show (1 : Fin S2048x512.rank) ∈ D2.rhsNonContracting by decide)]
  rfl

/-- Entry `(k, q)` of the first product: row `k` of the left factor against column `q` of the right one. -/
theorem mm1_apply (x0 : FVec Ideal S2048x128 .bf16) (x1 : FVec Ideal S128x512 .bf16) (k : Fin 2048) (q : Fin 512) :
    FloatOps.matmul D1 none x0 x1 (constant (F := Ideal) S2048x512 .f32 0x00000000#32) (ix2 k q)
      = ∑ l : Fin 128, x0 (ix2 k l) * x1 (ix2 l q) := by
  rw [Ideal.matmul_constant_zero_apply, ← Equiv.sum_comp (contrEquiv1 D1 128 rfl rfl).symm]
  refine Finset.sum_congr rfl fun l _ => ?_
  have hl := contrEquiv1_symm_val D1 128 rfl rfl l
  have el : D1.lhsIdx (ix2 k q) ((contrEquiv1 D1 128 rfl rfl).symm l) = ix2 k l := funext fun a => Fin.ext (by
    match a with
    | ⟨0, _⟩ => exact lhs1_0 _ _
    | ⟨1, _⟩ => exact (lhs1_1 _ _).trans hl)
  have er : D1.rhsIdx (ix2 k q) ((contrEquiv1 D1 128 rfl rfl).symm l) = ix2 l q := funext fun a => Fin.ext (by
    match a with
    | ⟨0, _⟩ => exact (rhs1_0 _ _).trans hl
    | ⟨1, _⟩ => exact rhs1_1 _ _)
  rw [el, er]

/-- Entry `(p, q)` of the second product. -/
theorem mm2_apply (x3 : FVec Ideal S128x2048 .bf16) (y : FVec Ideal S2048x512 .bf16) (p : Fin 128) (q : Fin 512) :
    FloatOps.matmul D2 none x3 y (constant (F := Ideal) S128x512 .f32 0x00000000#32) (ix2 p q)
      = ∑ k : Fin 2048, x3 (ix2 p k) * y (ix2 k q) := by
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 p q) ((contrEquiv1 D2 2048 rfl rfl).symm k) = ix2 p k := funext fun a => Fin.ext (by
    match a with
    | ⟨0, _⟩ => exact lhs2_0 _ _
    | ⟨1, _⟩ => exact (lhs2_1 _ _).trans hk)
  have er : D2.rhsIdx (ix2 p q) ((contrEquiv1 D2 2048 rfl rfl).symm k) = ix2 k q := funext fun a => Fin.ext (by
    match a with
    | ⟨0, _⟩ => exact (rhs2_0 _ _).trans hk
    | ⟨1, _⟩ => exact rhs2_1 _ _)
  rw [el, er]

/-! ## A bias column spread over the columns -/

/-- The first bias column [2048, 1] spread over 512 columns reads, at `(k, q)`, the column at `k`. -/
theorem bias1_apply (x2 : FVec Ideal S2048x1 .f32) (k : Fin 2048) (q : Fin 512) :
    broadcastTo S2048x512 x2 broadcasts_S2048x1_S2048x512 (ix2 k q) = x2 (ix2 k (0 : Fin 1)) :=
  broadcastTo_apply x2 broadcasts_S2048x1_S2048x512 (ix2 k q) (ix2 k (0 : Fin 1)) (fun a => match a with
    | ⟨0, _⟩ => by show k.val = if (2048 : Nat) = 1 then 0 else k.val; rw [if_neg (by decide)]
    | ⟨1, _⟩ => by show 0 = if (1 : Nat) = 1 then 0 else q.val; rw [if_pos rfl])

/-- The second bias column [128, 1] spread over 512 columns reads, at `(p, q)`, the column at `p`. -/
theorem bias2_apply (x4 : FVec Ideal S128x1 .f32) (p : Fin 128) (q : Fin 512) :
    broadcastTo S128x512 x4 broadcasts_S128x1_S128x512 (ix2 p q) = x4 (ix2 p (0 : Fin 1)) :=
  broadcastTo_apply x4 broadcasts_S128x1_S128x512 (ix2 p q) (ix2 p (0 : Fin 1)) (fun a => match a with
    | ⟨0, _⟩ => by show p.val = if (128 : Nat) = 1 then 0 else p.val; rw [if_neg (by decide)]
    | ⟨1, _⟩ => by show 0 = if (1 : Nat) = 1 then 0 else q.val; rw [if_pos rfl])

/-! ## The body's stages -/

/-- The block's pre-activations: the first product plus the bias column. -/
def preBlk (x0 : FVec Ideal S2048x128 .bf16) (x1 : FVec Ideal S128x512 .bf16) (x2 : FVec Ideal S2048x1 .f32) :
    FVec Ideal S2048x512 .f32 :=
  addf (matmul D1 none x0 x1 (constant (F := Ideal) S2048x512 .f32 0x00000000#32))
    (broadcastTo S2048x512 x2 broadcasts_S2048x1_S2048x512)

theorem preBlk_apply (x0 : FVec Ideal S2048x128 .bf16) (x1 : FVec Ideal S128x512 .bf16) (x2 : FVec Ideal S2048x1 .f32)
    (k : Fin 2048) (q : Fin 512) :
    preBlk x0 x1 x2 (ix2 k q) = (∑ l : Fin 128, x0 (ix2 k l) * x1 (ix2 l q)) + x2 (ix2 k (0 : Fin 1)) := by
  show FloatOps.matmul D1 none x0 x1 (constant (F := Ideal) S2048x512 .f32 0x00000000#32) (ix2 k q)
      + broadcastTo S2048x512 x2 broadcasts_S2048x1_S2048x512 (ix2 k q) = _
  rw [mm1_apply, bias1_apply]

/-- SiLU of every pre-activation, as the body spells it: `v · (1 / (1 + exp (0 - v)))`, then the cast to bf16. -/
def actBlk (v : FVec Ideal S2048x512 .f32) : FVec Ideal S2048x512 .bf16 :=
  truncf .bf16 (mulf v (divf (broadcast S2048x512 (Scalar.ofBits (F := Ideal) .f32 0x3F800000#32))
    (addf (broadcast S2048x512 (Scalar.ofBits (F := Ideal) .f32 0x3F800000#32))
      (exp (subf (broadcast S2048x512 (Scalar.ofBits (F := Ideal) .f32 0x00000000#32)) v))))) bitsLt_bf16_f32

theorem actBlk_apply (v : FVec Ideal S2048x512 .f32) (j : S2048x512.Idx) : actBlk v j = Kan.act (v j) := by
  show v j * Ideal.div (Ideal.ofBits .f32 0x3F800000#32)
      (Ideal.ofBits .f32 0x3F800000#32 + Ideal.exp (Ideal.ofBits .f32 0x00000000#32 - v j)) = _
  rw [Ideal.ofBits_zero_f32, zero_sub]
  rfl

/-- The body's accumulation is its stages composed. -/
theorem pay2_eq (x0 : FVec Ideal S2048x128 .bf16) (x1 : FVec Ideal S128x512 .bf16) (x2 : FVec Ideal S2048x1 .f32)
    (x3 : FVec Ideal S128x2048 .bf16) (acc : FVec Ideal S128x512 .f32) :
    k0_pay2 (F := Ideal) x0 x1 x2 x3 acc
      = addf acc (matmul D2 none x3 (actBlk (preBlk x0 x1 x2)) (constant (F := Ideal) S128x512 .f32 0x00000000#32)) := by
  unfold k0_pay2 actBlk preBlk
  simp only [shapeCast_self]

/-- The accumulation at row `p`, local column `q`. -/
theorem pay2_apply (x0 : FVec Ideal S2048x128 .bf16) (x1 : FVec Ideal S128x512 .bf16) (x2 : FVec Ideal S2048x1 .f32)
    (x3 : FVec Ideal S128x2048 .bf16) (acc : FVec Ideal S128x512 .f32) (p : Fin 128) (q : Fin 512) :
    k0_pay2 (F := Ideal) x0 x1 x2 x3 acc (ix2 p q)
      = acc (ix2 p q) + ∑ k : Fin 2048, x3 (ix2 p k)
          * Kan.act ((∑ l : Fin 128, x0 (ix2 k l) * x1 (ix2 l q)) + x2 (ix2 k (0 : Fin 1))) := by
  rw [pay2_eq]
  show acc (ix2 p q) + FloatOps.matmul D2 none x3 (actBlk (preBlk x0 x1 x2))
      (constant (F := Ideal) S128x512 .f32 0x00000000#32) (ix2 p q) = _
  rw [mm2_apply]
  refine congrArg (acc (ix2 p q) + ·) (Finset.sum_congr rfl fun k _ => ?_)
  rw [actBlk_apply, preBlk_apply]

/-- The block of zeros a run starts from. -/
theorem pay1_apply (j : S128x512.Idx) : k0_pay1 (F := Ideal) j = 0 := by
  show Ideal.ofBits .f32 0x00000000#32 = 0
  exact Ideal.ofBits_zero_f32

/-- The run's last step: the second bias column added to every column. -/
theorem pay3_apply (acc : FVec Ideal S128x512 .f32) (x4 : FVec Ideal S128x1 .f32) (p : Fin 128) (q : Fin 512) :
    k0_pay3 (F := Ideal) acc x4 (ix2 p q) = acc (ix2 p q) + x4 (ix2 p (0 : Fin 1)) := by
  unfold k0_pay3
  simp only [shapeCast_self]
  show acc (ix2 p q) + broadcastTo S128x512 x4 broadcasts_S128x1_S128x512 (ix2 p q) = _
  rw [bias2_apply]

end Cert.KernelIdeal.Pay

end
-- ==== Proof.Fold.lean ====
/-
  The kernel's result array is the network's result function of the matrices the region finds.

  For one batch block the 64 grid points run in order over the 64 hidden blocks, carrying the output block
  [128, 512] from one point to the next: the first point stores zero plus its own contribution, each later point
  adds its contribution to what the point before left, and the last one then adds the second bias column. A
  point's contribution at row `p`, local column `q` is the sum over its 2048 hidden units of
  `C[p, K] · act (pre K column)`. So after the last point the block holds `0 + Σ_s contribution s`, plus the bias; the
  64 contributions are the whole sum over the 131072 hidden units, taken block by block.
-/
import proofs.«126834_j44641890075015_1_alg».proof.Proof.Blocks
import proofs.«126834_j44641890075015_1_alg».proof.Proof.Payload

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-- What grid point `n` contributes to the output block at local index `y`. -/
def contrib (c : Dev nD) (n : ℕ) (y : S128x512.Idx) : EReal :=
  Kan.addend (Blk.w1 m c) (Blk.inp m c) (Blk.b1 m c) (Blk.w2 m c) n (y 0).val (y 1).val

/-- The body's accumulation over a point's own blocks adds that point's contribution. -/
theorem pay2_blocks (c : Dev nD) (t : Fin cfg0.N) (acc : FVec Ideal S128x512 .f32) (y : S128x512.Idx) :
    k0_pay2 (F := Ideal) (iblk m c 0 t) (iblk m c 1 t) (iblk m c 2 t) (iblk m c 3 t) acc y = acc y + contrib m c t.val y := by
  obtain ⟨p, q, rfl⟩ : ∃ (p : Fin 128) (q : Fin 512), y = ix2 p q := ⟨y 0, y 1, eq_ix2 y⟩
  refine (Pay.pay2_apply (iblk m c 0 t) (iblk m c 1 t) (iblk m c 2 t) (iblk m c 3 t) acc p q).trans ?_
  refine congrArg (acc (ix2 p q) + ·) ?_
  show _ = Kan.addend (Blk.w1 m c) (Blk.inp m c) (Blk.b1 m c) (Blk.w2 m c) t.val p.val q.val
  unfold Kan.addend Kan.preT
  refine Finset.sum_congr rfl fun k _ => ?_
  rw [Blk.blk3_apply m c t p k, Blk.blk2_apply m c t k]
  refine congrArg (fun v => Kan.at2 (Blk.w2 m c) p.val (2048 * (t.val % 64) + k.val)
      * Kan.act (v + Kan.at2 (Blk.b1 m c) (2048 * (t.val % 64) + k.val) 0)) (Finset.sum_congr rfl fun l _ => ?_)
  rw [Blk.blk0_apply m c t k l, Blk.blk1_apply m c t l q]

/-- A run's first point: zero plus its contribution. -/
theorem reset_apply (c : Dev nD) (n : ℕ) (h : n < cfg0.N) (y : S128x512.Idx) :
    reset5 m c n h y = 0 + contrib m c n y := by
  unfold reset5
  refine (pay2_blocks m c ⟨n, h⟩ (k0_pay1 (F := Ideal)) y).trans ?_
  rw [Pay.pay1_apply]

/-- A point that is neither first nor last in its run adds its contribution to what the point before left. -/
theorem step_mid (c : Dev nD) (n : ℕ) (h : n < cfg0.N) (acc : FVec Ideal S128x512 .f32) (y : S128x512.Idx)
    (h0 : ¬n % 64 = 0) (h1 : ¬n % 64 = 63) :
    step5 m c n h acc y = acc y + contrib m c n y := by
  unfold step5
  rw [if_pos ⟨h0, h1⟩]
  exact pay2_blocks m c ⟨n, h⟩ acc y

/-- A run's last point adds its contribution and then the second bias column. -/
theorem step_last (c : Dev nD) (n : ℕ) (h : n < cfg0.N) (acc : FVec Ideal S128x512 .f32) (y : S128x512.Idx)
    (h0 : ¬n % 64 = 0) (h1 : n % 64 = 63) :
    step5 m c n h acc y = (acc y + contrib m c n y) + Kan.at2 (Blk.b2 m c) (y 0).val 0 := by
  unfold step5
  rw [if_neg (fun hh => hh.2 h1), if_pos ⟨h0, h1⟩]
  obtain ⟨p, q, rfl⟩ : ∃ (p : Fin 128) (q : Fin 512), y = ix2 p q := ⟨y 0, y 1, eq_ix2 y⟩
  refine (Pay.pay3_apply (k0_pay2 (F := Ideal) (iblk m c 0 ⟨n, h⟩) (iblk m c 1 ⟨n, h⟩) (iblk m c 2 ⟨n, h⟩) (iblk m c 3 ⟨n, h⟩) acc)
    (iblk m c 4 ⟨n, h⟩) p q).trans ?_
  rw [pay2_blocks m c ⟨n, h⟩ acc (ix2 p q), Blk.blk4_apply m c ⟨n, h⟩ p]

/-- After the 64 points of batch block `r` the output block holds zero plus the 64 contributions, plus the bias. -/
theorem fold_apply (c : Dev nD) (r : ℕ) (h : 64 * r + 63 < cfg0.N) (y : S128x512.Idx) :
    Pipeline.accAt (reset5 m c) (step5 m c) (64 * r) 63 h y
      = (0 + ∑ s ∈ Finset.range 64, contrib m c (64 * r + s) y) + Kan.at2 (Blk.b2 m c) (y 0).val 0 := by
  show Pipeline.accAt (reset5 m c) (step5 m c) (64 * r) (62 + 1) h y = _
  rw [Pipeline.accAt_succ, step_last m c (64 * r + (62 + 1)) h _ y (by omega) (by omega),
    Pipeline.accAt_add_apply (reset5 m c) (step5 m c) (fun _ => 0) (fun n y => contrib m c n y) (64 * r) 62
      (fun h i => reset_apply m c (64 * r) h i)
      (fun n h acc i hb he => step_mid m c n h acc i (by omega) (by omega)) 62 le_rfl _ y,
    Finset.sum_range_succ _ 63, add_assoc 0]

/-- The kernel's result array is the network's result function of the five matrices. -/
theorem G5_eq (c : Dev nD) :
    G5 m c = Kan.out (Blk.w1 m c) (Blk.inp m c) (Blk.b1 m c) (Blk.w2 m c) (Blk.b2 m c) := by
  funext i
  have hi0 : (i 0).val < 128 := (i 0).isLt
  have hi1 : (i 1).val < 1024 := (i 1).isLt
  have hN : cfg0.N = 128 := N_0
  have hr : run5Of i = (i 1).val / 512 := by
    show 2 * ((i 0).val / 128 - 0) + 1 * ((i 1).val / 512 - 0) = _
    have : (i 0).val / 128 = 0 := by omega
    omega
  unfold G5
  rw [dif_pos (by rw [hr, hN]; omega)]
  have e : ∀ (b : ℕ) (h : b + 63 < cfg0.N) (r : ℕ) (h' : 64 * r + 63 < cfg0.N), b = 64 * r →
      Pipeline.accAt (reset5 m c) (step5 m c) b 63 h = Pipeline.accAt (reset5 m c) (step5 m c) (64 * r) 63 h' := by
    intro b h r h' hb; subst hb; rfl
  rw [e _ _ ((i 1).val / 512) (by rw [hN]; omega) (by rw [hr]), fold_apply]
  have hb := Kan.blocks_eq_outAt (Blk.w1 m c) (Blk.inp m c) (Blk.b1 m c) (Blk.w2 m c) (Blk.b2 m c)
    ⟨(i 0).val, hi0⟩ ((i 1).val / 512) (by omega) ⟨(i 1).val % 512, Nat.mod_lt _ (by decide)⟩
  have h0 : ((loc5Of i) 0).val = (i 0).val := by
    show (i 0).val % 128 = (i 0).val
    exact Nat.mod_eq_of_lt hi0
  have h1 : ((loc5Of i) 1).val = (i 1).val % 512 := rfl
  unfold contrib
  rw [h0, h1]
  refine hb.trans ?_
  unfold Kan.out
  congr 1
  apply Fin.ext
  show 512 * ((i 1).val / 512) + (i 1).val % 512 = (i 1).val
  omega

end Cert.KernelIdeal.Fold

end
-- ==== Proof.HostArrays.lean ====
/-
  The five matrices the region finds, in terms of the program's arguments.

  Before the region the program multiplies each weight matrix by its mask (the mask's bits read as 0 and 1) and
  casts the two products and the input to bf16; the two bias columns are passed as they are. At the extended reals
  a cast is the identity, so the region finds the masked weights, the input and the biases themselves.
-/
import proofs.«126834_j44641890075015_1_alg».proof.Proof.Blocks
import Idealize.ShloMosaic.Lib.StableHlo.Run

noncomputable section

namespace Cert.KernelIdeal.HostArr

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The first-layer weights times their mask. -/
theorem w1_eq (c : Dev nD) :
    Blk.w1 m c = truncf (F := Ideal) .bf16 (mulf (m ((c : Thread nD τ).loc main_arg1)) (uitofp .f32 (m ((c : Thread nD τ).loc main_arg2)))) bitsLt_bf16_f32 := by
  unfold Blk.w1
  dsimp only [Gen.V, Gen.hostOps0]
  after_results

/-- The input. -/
theorem inp_eq (c : Dev nD) :
    Blk.inp m c = truncf (F := Ideal) .bf16 (m ((c : Thread nD τ).loc main_arg0)) bitsLt_bf16_f32 := by
  unfold Blk.inp
  dsimp only [Gen.V, Gen.hostOps0]
  after_results

/-- The second-layer weights times their mask. -/
theorem w2_eq (c : Dev nD) :
    Blk.w2 m c = truncf (F := Ideal) .bf16 (mulf (m ((c : Thread nD τ).loc main_arg4)) (uitofp .f32 (m ((c : Thread nD τ).loc main_arg5)))) bitsLt_bf16_f32 := by
  unfold Blk.w2
  dsimp only [Gen.V, Gen.hostOps0]
  after_results

/-- The first bias column, as passed. -/
theorem b1_eq (c : Dev nD) : Blk.b1 m c = m ((c : Thread nD τ).loc main_arg3) := by
  unfold Blk.b1
  exact V_main_arg3 m c

/-- The second bias column, as passed. -/
theorem b2_eq (c : Dev nD) : Blk.b2 m c = m ((c : Thread nD τ).loc main_arg6) := by
  unfold Blk.b2
  exact V_main_arg6 m c

end Cert.KernelIdeal.HostArr

end
-- ==== Proof.lean ====
/-
  A two-layer network with masked weights: the kernel against its plain reference, on the extended reals.

  Both programs compute `out = (M2 ∘ mask2) · silu ((M1 ∘ mask1) · x + b1) + b2`, with `x` [128, 1024], the hidden
  layer of 131072 units, `out` [128, 1024] and `silu v = v · (1 / (1 + e^(-v)))`. The reference takes the two matrix
  products whole. The kernel walks a 2 × 64 grid: for each of the two blocks of 512 batch columns it visits the 64
  blocks of 2048 hidden units in order, forms that block's activations, multiplies them by the matching 2048 columns
  of the second layer's weights, and accumulates the 64 partial products in the output block, starting from zero and
  adding `b2` at the last one.

  On the extended reals a change of float format is the identity and each matrix product is a plain sum of
  products, so entry `(p, q)` of either result is `Σ_K C[p, K] · silu (Σ_l A[K, l] · x[l, q] + b1[K]) + b2[p]` over the
  masked weights `A`, `C`; the kernel reaches it as `0 + Σ_s (block s's part)`, which is the same sum regrouped into
  64 consecutive blocks. Regrouping uses only associativity and commutativity of the addition, which hold on the
  extended reals without exception, so the finiteness of the inputs is never used.

  The modules: `LibBlockSum` (a sum taken block by block), `KanSpec` (the result function, whole and block by
  block), `Payload` (the kernel body's arithmetic at an entry), `Blocks` (which matrix entries a grid point's blocks
  hold), `Fold` (the 64 points' accumulation is the result function), `HostArrays` (the matrices the kernel's region
  finds are the masked arguments), `RefAtIndex` (the reference at an entry is the result function).
-/
import proofs.«126834_j44641890075015_1_alg».proof.Defs
import proofs.«126834_j44641890075015_1_alg».proof.Proof.Gen.Kernel.Frame
import proofs.«126834_j44641890075015_1_alg».proof.Proof.Gen.KernelIdeal.Value
import proofs.«126834_j44641890075015_1_alg».proof.Proof.Gen.Pre_finite_inputs
import proofs.«126834_j44641890075015_1_alg».proof.Proof.Gen.ReferenceIdeal.Run
import proofs.«126834_j44641890075015_1_alg».proof.Proof.RefAtIndex
import proofs.«126834_j44641890075015_1_alg».proof.Proof.Fold
import proofs.«126834_j44641890075015_1_alg».proof.Proof.HostArrays
import Idealize.ShloMosaic.Adequacy
import Idealize.ShloMosaic.Init

noncomputable section

namespace Cert.Proof

open Idealize.ShloMosaic Idealize.SL.Sem

/-- The idealized kernel terminates without a fault and leaves its arguments as they were. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments as they were. -/
theorem frame_ReferenceIdeal : frame_ReferenceIdeal := fun m ρ _ =>
  (θ_run Cert.ReferenceIdeal.defs _ _).mono (fun _ h c => (h c).2) (Cert.ReferenceIdeal.Value.run (F := Ideal) m ρ)

/-- The matrices the kernel's region finds are the ones the reference forms: the weights times their masks, the
    input and the two biases — the casts to bf16 in between being the identity on the extended reals. -/
theorem same_matrices (m : (ℓ : Loc Cert.KernelIdeal.nD Cert.KernelIdeal.τ Cert.KernelIdeal.sig) → Buf (Elt Ideal) ℓ)
    (c : Dev Cert.KernelIdeal.nD) :
    Kan.out (Cert.KernelIdeal.Blk.w1 m c) (Cert.KernelIdeal.Blk.inp m c) (Cert.KernelIdeal.Blk.b1 m c)
        (Cert.KernelIdeal.Blk.w2 m c) (Cert.KernelIdeal.Blk.b2 m c)
      = Kan.out
        (Cert.ReferenceIdeal.Read.val_main_v1 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (Cert.ReferenceIdeal.Read.val_main_v7 (F := Ideal)
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)))
        (m ((c.tc : Thread Cert.KernelIdeal.nD Cert.KernelIdeal.τ).loc Cert.KernelIdeal.main_arg6)) := by
  rw [Cert.KernelIdeal.HostArr.w1_eq, Cert.KernelIdeal.HostArr.inp_eq, Cert.KernelIdeal.HostArr.b1_eq,
    Cert.KernelIdeal.HostArr.w2_eq, Cert.KernelIdeal.HostArr.b2_eq]
  rfl

/-- From memories that agree on the arguments both programs end with the same result array: the network's result
    function of the masked weights, the input and the biases. -/
theorem algebraic_KernelIdeal_ReferenceIdeal : algebraic_KernelIdeal_ReferenceIdeal := by
  intro m ρ m' ρ' _ hagree
  refine ⟨fun c => Cert.KernelIdeal.Value.G5 m c, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6⟩ := hagree c
  rw [(h c).1, Cert.ReferenceIdeal.Read.val_main_v10_eq, Cert.ReferenceIdeal.RefValue.result_eq,
    a0, a1, a2, a3, a4, a5, a6]
  exact ((Cert.KernelIdeal.Fold.G5_eq m c).trans (same_matrices m c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
